-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg6 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S800000 32) (main_arg2 : IVec S800000 32) (main_arg3 : FVec F S128x64 .f32) (main_arg4 : FVec F S64 .f32) (main_arg5 : FVec F S64x64 .f32) (main_arg6 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_v13 main_v16
-- ==== Kernel.lean ====
abbrev S100000x64 : Shape := ⟨2, ![100000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S1x64 : Shape := ⟨2, ![1, 64]⟩
abbrev S5000x64 : Shape := ⟨2, ![5000, 64]⟩

abbrev nBuf : Space → Nat
  | .hbm => 37
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S100000x64, .f32⟩
  | .hbm, ⟨18, _⟩ => ⟨S800000x1, .i32⟩
  | .hbm, ⟨19, _⟩ => ⟨S100000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S64x64, .f32⟩
  | .hbm, ⟨33, _⟩ => ⟨S64x64, .f32⟩
  | .hbm, ⟨34, _⟩ => ⟨S1x64, .f32⟩
  | .hbm, ⟨35, _⟩ => ⟨S1x64, .f32⟩
  | .hbm, ⟨36, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  slices_S128x64_S64x64_0_0 : S128x64.Slices ![0, 0] S64x64
  slices_S128x64_S64x64_64_0 : S128x64.Slices ![64, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v23) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S800000 : Shape := ⟨1, ![800000]⟩
abbrev S128x64 : Shape := ⟨2, ![128, 64]⟩
abbrev S64 : Shape := ⟨1, ![64]⟩
abbrev S64x64 : Shape := ⟨2, ![64, 64]⟩
abbrev S_ : Shape := ⟨0, ![]⟩
abbrev S800000x1 : Shape := ⟨2, ![800000, 1]⟩
abbrev S800000x64 : Shape := ⟨2, ![800000, 64]⟩
abbrev S100000 : Shape := ⟨1, ![100000]⟩
abbrev S100000x1 : Shape := ⟨2, ![100000, 1]⟩
abbrev S100000x128 : Shape := ⟨2, ![100000, 128]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S800000, .i32⟩
  | .hbm, ⟨2, _⟩ => ⟨S800000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x64, .f32⟩
  | .hbm, ⟨16, _⟩ => ⟨S_, .f32⟩
  | .hbm, ⟨17, _⟩ => ⟨S100000x64, .f32⟩
  | .hbm, ⟨18, _⟩ => ⟨S800000x1, .i32⟩
  | .hbm, ⟨19, _⟩ => ⟨S100000x64, .f32⟩
  | .hbm, ⟨20, _⟩ => ⟨S_, .f32⟩
  | .hbm, ⟨21, _⟩ => ⟨S800000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x64, .f32⟩
  | .hbm, ⟨31, _⟩ => ⟨S100000x64, .f32⟩
  | .hbm, ⟨32, _⟩ => ⟨S100000x128, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S_, .f32⟩
  | .hbm, ⟨38, _⟩ => ⟨S100000x64, .f32⟩
  | .hbm, ⟨39, _⟩ => ⟨S100000x64, .f32⟩
  | .hbm, ⟨40, _⟩ => ⟨S100000x64, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S800000x1_S800000x64_1_0_n_n_0_1_164_wf : GatherDims.WF S100000x64 S800000x1 S800000x64 [1] [0] [] [0] [] 1 ![1, 64]
  scatter_S100000x64_S800000x1_S800000x64_1_0_0_1_wf : ScatterDims.WF S100000x64 S800000x1 S800000x64 [1] [0] [0] 1
  scatter_S100000_S800000x1_S800000_n_0_0_1_wf : ScatterDims.WF S100000 S800000x1 S800000 [] [0] [0] 1
  dot_S100000x128_S128x64_S100000x64_1_0_0_1_n_n_wf : DotDims.WF S100000x128 S128x64 S100000x64 [1] [0] [0] [1] [] []
  dot_S100000x64_S64x64_S100000x64_1_0_0_1_n_n_wf : DotDims.WF S100000x64 S64x64 S100000x64 [1] [0] [0] [1] [] []

variable [Facts₀]

def gather_S100000x64_S800000x1_S800000x64_1_0_n_n_0_1_164 : GatherDims S100000x64 S800000x1 S800000x64 where
  offsetDims := [1]
  collapsedSliceDims := [0]
  operandBatchingDims := []
  startIndicesBatchingDims := []
  startIndexMap := [0]
  indexVectorDim := 1
  sliceSizes := ![1, 64]
  wf := gather_S100000x64_S800000x1_S800000x64_1_0_n_n_0_1_164_wf
def scatter_S100000x64_S800000x1_S800000x64_1_0_0_1 : ScatterDims S100000x64 S800000x1 S800000x64 where
  updateWindowDims := [1]
  insertedWindowDims := [0]
  scatterDimsToOperandDims := [0]
  indexVectorDim := 1
  wf := scatter_S100000x64_S800000x1_S800000x64_1_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  The layer as a function of whole arrays, with no program in sight.

  For node features `x` (100000 rows of 64), the per-node neighbourhood mean `mean` (same shape), the stacked weight
  `wfc` (128 rows of 64: rows 0..63 act on `x`, rows 64..127 on `mean`), the residual weight `wres` (64 by 64) and the two
  biases, entry (r, j) of the result is

      max ((Σₖ x[r,k]·wfc[k,j] + Σₖ mean[r,k]·wfc[64+k,j]) + bfc[j]) 0 + Σₖ x[r,k]·wres[k,j] + bres[j]

  over the extended reals, every sum over k = 0..63 and the additions grouped as written. The one law needed to meet a
  product against the 128-row weight is that a sum over 0..127 is the sum over 0..63 plus the sum over 64..127, which holds
  in any commutative additive monoid, so no finiteness of the entries is used.
-/
import Idealize.ShloMosaic.PureOps.Ideal
import Idealize.ShloMosaic.Lib.ValueIdx

noncomputable section

open scoped BigOperators

namespace Cert.Sage

open Idealize.ShloMosaic Idealize.ShloMosaic.ValueIdx

/-- Row `k` of the upper half of a 128-row matrix. -/
abbrev topRow (k : Fin 64) : Fin 128 := ⟨k.val, by omega⟩
/-- Row `64 + k`: row `k` of its lower half. -/
abbrev botRow (k : Fin 64) : Fin 128 := ⟨64 + k.val, by omega⟩

/-- One entry of the result from the row of `x`, the row of `mean`, the three weight columns and the two bias entries
    it depends on: the rectified sum of the two products and the first bias, plus the residual product, plus the
    second bias. The rectifier's threshold is kept as the f32 zero word's value. -/
def entry (xr mr w1 w2 wr : Fin 64 → EReal) (b1 b2 : EReal) : EReal :=
  max (((∑ k, xr k * w1 k) + (∑ k, mr k * w2 k)) + b1) (Ideal.ofBits .f32 0x00000000#32) + (∑ k, xr k * wr k) + b2

/-- The whole result array: entry (r, j) from row r of `x` and of `mean`, column j of the two halves of `wfc` and of
    `wres`, and entry j of each bias. -/
def layer (x mean : (⟨2, ![100000, 64]⟩ : Shape).Idx → EReal) (wfc : (⟨2, ![128, 64]⟩ : Shape).Idx → EReal)
    (bfc : (⟨1, ![64]⟩ : Shape).Idx → EReal) (wres : (⟨2, ![64, 64]⟩ : Shape).Idx → EReal)
    (bres : (⟨1, ![64]⟩ : Shape).Idx → EReal) : (⟨2, ![100000, 64]⟩ : Shape).Idx → EReal := fun i =>
  entry (fun k => x (ix2 (i 0 : Fin 100000) k)) (fun k => mean (ix2 (i 0 : Fin 100000) k))
    (fun k => wfc (ix2 (topRow k) (i 1 : Fin 64))) (fun k => wfc (ix2 (botRow k) (i 1 : Fin 64)))
    (fun k => wres (ix2 k (i 1 : Fin 64))) (bfc (ix1 (i 1 : Fin 64))) (bres (ix1 (i 1 : Fin 64)))

/-- The result at row `p`, column `q`. -/
theorem layer_apply (x mean : (⟨2, ![100000, 64]⟩ : Shape).Idx → EReal) (wfc : (⟨2, ![128, 64]⟩ : Shape).Idx → EReal)
    (bfc : (⟨1, ![64]⟩ : Shape).Idx → EReal) (wres : (⟨2, ![64, 64]⟩ : Shape).Idx → EReal)
    (bres : (⟨1, ![64]⟩ : Shape).Idx → EReal) (p : Fin 100000) (q : Fin 64) :
    layer x mean wfc bfc wres bres (ix2 p q) =
      entry (fun k => x (ix2 p k)) (fun k => mean (ix2 p k)) (fun k => wfc (ix2 (topRow k) q))
        (fun k => wfc (ix2 (botRow k) q)) (fun k => wres (ix2 k q)) (bfc (ix1 q)) (bres (ix1 q)) := rfl

/-- The same entries from the arrays as the kernel's launch is handed them: the stacked weight already cut into its
    upper and lower 64 rows, each bias as a one-row matrix. -/
def layerCut (x mean : (⟨2, ![100000, 64]⟩ : Shape).Idx → EReal) (wU wL : (⟨2, ![64, 64]⟩ : Shape).Idx → EReal)
    (b1 : (⟨2, ![1, 64]⟩ : Shape).Idx → EReal) (wres : (⟨2, ![64, 64]⟩ : Shape).Idx → EReal)
    (b2 : (⟨2, ![1, 64]⟩ : Shape).Idx → EReal) : (⟨2, ![100000, 64]⟩ : Shape).Idx → EReal := fun i =>
  entry (fun k => x (ix2 (i 0 : Fin 100000) k)) (fun k => mean (ix2 (i 0 : Fin 100000) k))
    (fun k => wU (ix2 k (i 1 : Fin 64))) (fun k => wL (ix2 k (i 1 : Fin 64)))
    (fun k => wres (ix2 k (i 1 : Fin 64))) (b1 (ix2 (0 : Fin 1) (i 1 : Fin 64))) (b2 (ix2 (0 : Fin 1) (i 1 : Fin 64)))

/-- That form at row `p`, column `q`. -/
theorem layerCut_apply (x mean : (⟨2, ![100000, 64]⟩ : Shape).Idx → EReal) (wU wL : (⟨2, ![64, 64]⟩ : Shape).Idx → EReal)
    (b1 : (⟨2, ![1, 64]⟩ : Shape).Idx → EReal) (wres : (⟨2, ![64, 64]⟩ : Shape).Idx → EReal)
    (b2 : (⟨2, ![1, 64]⟩ : Shape).Idx → EReal) (p : Fin 100000) (q : Fin 64) :
    layerCut x mean wU wL b1 wres b2 (ix2 p q) =
      entry (fun k => x (ix2 p k)) (fun k => mean (ix2 p k)) (fun k => wU (ix2 k q)) (fun k => wL (ix2 k q))
        (fun k => wres (ix2 k q)) (b1 (ix2 (0 : Fin 1) q)) (b2 (ix2 (0 : Fin 1) q)) := rfl

/-- A sum over the 128 rows is the sum over the upper 64 plus the sum over the lower 64. -/
theorem sum_rows_split {M : Type*} [AddCommMonoid M] (f : Fin 128 → M) :
    ∑ k : Fin 128, f k = ∑ k : Fin 64, f (topRow k) + ∑ k : Fin 64, f (botRow k) :=
  Fin.sum_univ_add (a := 64) (b := 64) f

end Cert.Sage

end
-- ==== Proof.BlockLayer.lean ====
/-
  One block of the kernel's output, entry by entry.

  At a grid point the body holds a 5000-row block of `x`, the same rows of `mean`, the two 64-row halves of the stacked
  weight, the residual weight and the two biases as one-row matrices, and stores ONE value: three products on the
  matrix unit, each into a zero accumulator, with the operands narrowed to bf16 first, combined as
  `max ((x·w₁ + mean·w₂) + b₁) 0 + x·w_res + b₂`. Over the extended reals the narrowing is the identity and a product
  into a zero accumulator is the plain sum over the 64 contraction positions, so entry (p, q) of the stored block is
  `Cert.Sage.entry` of row p of the two row blocks, column q of the three weights and entry q of the two biases.
-/
import proofs.«160254_j11587821765008_1_alg».proof.Proof.Gen.KernelIdeal.Skeleton
import proofs.«160254_j11587821765008_1_alg».proof.Proof.Layer
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Block

open Cert.KernelIdeal Cert.KernelIdeal.Gen Idealize.ShloMosaic Idealize.ShloMosaic.ValueIdx

/-! ## The matrix unit's dimension numbers at an output index: rows × contraction times contraction × columns -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem lhs_col (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_row (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A block product into the zero accumulator, at entry (p, q): the sum over the 64 contraction positions of row p of
    the left operand times column q of the right. -/
theorem product_apply {φ₁ φ₂ : FTy} (a : FVec Ideal S5000x64 φ₁) (b : FVec Ideal S64x64 φ₂) (p : Fin 5000) (q : Fin 64) :
    FloatOps.matmul dot_S5000x64_S64x64_S5000x64_1_0_0_1_n_n none a b (constant (F := Ideal) S5000x64 .f32 0x00000000#32) (ix2 p q)
      = ∑ k : Fin 64, a (ix2 p k) * b (ix2 k q) := by
  rw [Ideal.matmul_constant_zero_apply,
    ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q)
      ((contrEquiv1 dot_S5000x64_S64x64_S5000x64_1_0_0_1_n_n 64 rfl rfl).symm k) = ix2 p k := funext fun ax => Fin.ext (by
    match ax with
    | ⟨0, _⟩ => exact lhs_row _ _
    | ⟨1, _⟩ => exact (lhs_col _ _).trans hk)
  have er : dot_S5000x64_S64x64_S5000x64_1_0_0_1_n_n.rhsIdx (ix2 p q)
      ((contrEquiv1 dot_S5000x64_S64x64_S5000x64_1_0_0_1_n_n 64 rfl rfl).symm k) = ix2 k q := funext fun ax => Fin.ext (by
    match ax with
    | ⟨0, _⟩ => exact (rhs_row _ _).trans hk
    | ⟨1, _⟩ => exact rhs_col _ _)
  rw [el, er]

/-- THE STORED BLOCK AT (p, q): `Cert.Sage.entry` of row p of the two row blocks, column q of the three weights, entry q
    of the two one-row biases. -/
theorem stored_apply (v0 v1 : Vec Ideal S5000x64 .f32) (v5 v8 v11 : Vec Ideal S64x64 .f32) (v16 v24 : Vec Ideal S1x64 .f32)
    (p : Fin 5000) (q : Fin 64) :
    k0_pay1 (F := Ideal) v0 v1 v5 v8 v11 v16 v24 (ix2 p q)
      = Cert.Sage.entry (fun k => v0 (ix2 p k)) (fun k => v1 (ix2 p k)) (fun k => v5 (ix2 k q)) (fun k => v8 (ix2 k q))
          (fun k => v11 (ix2 k q)) (v16 (ix2 (0 : Fin 1) q)) (v24 (ix2 (0 : Fin 1) q)) := by
  unfold k0_pay1 Cert.Sage.entry
  simp only [shapeCast_self, matmul]
  show max
        ((FloatOps.matmul dot_S5000x64_S64x64_S5000x64_1_0_0_1_n_n none (truncf .bf16 v0 bitsLt_bf16_f32)
              (truncf .bf16 v5 bitsLt_bf16_f32) (constant (F := Ideal) S5000x64 .f32 0x00000000#32) (ix2 p q)
            + FloatOps.matmul dot_S5000x64_S64x64_S5000x64_1_0_0_1_n_n none (truncf .bf16 v1 bitsLt_bf16_f32)
              (truncf .bf16 v8 bitsLt_bf16_f32) (constant (F := Ideal) S5000x64 .f32 0x00000000#32) (ix2 p q))
          + broadcastTo S5000x64 v16 broadcasts_S1x64_S5000x64 (ix2 p q))
        (Ideal.ofBits .f32 0x00000000#32)
      + FloatOps.matmul dot_S5000x64_S64x64_S5000x64_1_0_0_1_n_n none (truncf .bf16 v0 bitsLt_bf16_f32)
          (truncf .bf16 v11 bitsLt_bf16_f32) (constant (F := Ideal) S5000x64 .f32 0x00000000#32) (ix2 p q)
      + broadcastTo S5000x64 v24 broadcasts_S1x64_S5000x64 (ix2 p q) = _
  rw [product_apply, product_apply, product_apply, broadcastTo_1b_ab_apply, broadcastTo_1b_ab_apply]
  rfl

end Cert.KernelIdeal.Block

end
-- ==== Proof.HostArrays.lean ====
/-
  What the kernel's region finds in the arrays its windows read.

  Before the one launch, the program's host operations compute the neighbourhood mean from `x` and the two edge lists
  (gather the source rows, add them up per destination node, divide by the clamped in-degree), cut the stacked weight into
  its upper and lower 64 rows, and give each bias a leading unit axis. Here each of those five arrays is named as a term of
  the argument arrays, and the four re-laid ones are read at an index: row k of the upper cut is row k of the weight,
  row k of the lower cut is row 64 + k, and entry (0, q) of a re-laid bias is entry q. The mean is kept as one unopened
  function `mean` of the three arguments.
-/
import proofs.«160254_j11587821765008_1_alg».proof.Proof.Gen.KernelIdeal.Frame
import proofs.«160254_j11587821765008_1_alg».proof.Proof.Layer
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]

/-- The neighbourhood mean as the host operations spell it: the rows of `x0` at the (wrapped) source indices `x1`, added
    up per destination index `x2` into a zero array, divided entrywise by the number of edges into each node, at least one. -/
def mean (x0 : (⟨S100000x64, .f32⟩ : BufTy).Contents (Elt F)) (x1 x2 : (⟨S800000, .i32⟩ : BufTy).Contents (Elt F)) :
    (⟨S100000x64, .f32⟩ : BufTy).Contents (Elt F) :=
  Host.divf (Host.scatterAdd scatter_S100000x64_S800000x1_S800000x64_1_0_0_1 (broadcastInDim S100000x64 ![] bcast_S_S100000x64 (constant S_ .f32 0x00000000#32)) (broadcastInDim S800000x1 ![0] bcast_S800000_S800000x1_0 (x2)) (Host.gather gather_S100000x64_S800000x1_S800000x64_1_0_n_n_0_1_164 (x0) (broadcastInDim S800000x1 ![0] bcast_S800000_S800000x1_0 (select (cmpi .slt (x1) (broadcastInDim S800000 ![] bcast_S_S800000 (constantI S_ 32 0#32))) (addi (x1) (broadcastInDim S800000 ![] bcast_S_S800000 (constantI S_ 32 100000#32))) (x1))))) (broadcastInDim S100000x64 ![0, 1] bcast_S100000x1_S100000x64_0_1 (broadcastInDim S100000x1 ![0] bcast_S100000_S100000x1_0 (maximumf (Host.scatterAdd scatter_S100000_S800000x1_S800000_n_0_0_1 (broadcastInDim S100000 ![] bcast_S_S100000 (constant S_ .f32 0x00000000#32)) (broadcastInDim S800000x1 ![0] bcast_S800000_S800000x1_0 (x2)) (broadcastInDim S800000 ![] bcast_S_S800000 (constant S_ .f32 0x3F800000#32))) (broadcastInDim S100000 ![] bcast_S_S100000 (constant S_ .f32 0x3F800000#32)))))

variable (m : (ℓ : Loc nD τ sig) → Buf (Elt F) ℓ)

set_option maxHeartbeats 2000000 in
/-- The second window's array is the mean of the three arguments. -/
theorem found_mean (c : Dev nD) :
    V m c main_v18 = mean (m ((c : Thread nD τ).loc main_arg0)) (m ((c : Thread nD τ).loc main_arg1)) (m ((c : Thread nD τ).loc main_arg2)) := by
  unfold mean
  dsimp only [V, hostOps0]
  after_results_simp <;> rfl

/-- The third window's array is the stacked weight's rows 0..63. -/
theorem found_upper (c : Dev nD) :
    V m c main_v19 = extractStridedSlice S64x64 ![0, 0] (m ((c : Thread nD τ).loc main_arg3)) slices_S128x64_S64x64_0_0 := by
  dsimp only [V, hostOps0]
  after_results_simp <;> rfl

/-- The fourth window's array is the stacked weight's rows 64..127. -/
theorem found_lower (c : Dev nD) :
    V m c main_v20 = extractStridedSlice S64x64 ![64, 0] (m ((c : Thread nD τ).loc main_arg3)) slices_S128x64_S64x64_64_0 := by
  dsimp only [V, hostOps0]
  after_results_simp <;> rfl

/-- The fifth window's array is the first bias as one row. -/
theorem found_bias1 (c : Dev nD) :
    V m c main_v21 = shapeCast S1x64 (m ((c : Thread nD τ).loc main_arg4)) shapeCasts_S64_S1x64 := by
  dsimp only [V, hostOps0]
  after_results_simp <;> rfl

/-- The seventh window's array is the second bias as one row. -/
theorem found_bias2 (c : Dev nD) :
    V m c main_v22 = shapeCast S1x64 (m ((c : Thread nD τ).loc main_arg6)) shapeCasts_S64_S1x64 := by
  dsimp only [V, hostOps0]
  after_results_simp <;> rfl

/-! ## The same, at the windows' own array references -/

theorem at_x (c : Dev nD) : V m c (Pipeline.arrRef spec0 0) = m ((c : Thread nD τ).loc main_arg0) := V_main_arg0 m c
theorem at_mean (c : Dev nD) : V m c (Pipeline.arrRef spec0 1)
    = mean (m ((c : Thread nD τ).loc main_arg0)) (m ((c : Thread nD τ).loc main_arg1)) (m ((c : Thread nD τ).loc main_arg2)) :=
  found_mean m c
theorem at_upper (c : Dev nD) : V m c (Pipeline.arrRef spec0 2)
    = extractStridedSlice S64x64 ![0, 0] (m ((c : Thread nD τ).loc main_arg3)) slices_S128x64_S64x64_0_0 := found_upper m c
theorem at_lower (c : Dev nD) : V m c (Pipeline.arrRef spec0 3)
    = extractStridedSlice S64x64 ![64, 0] (m ((c : Thread nD τ).loc main_arg3)) slices_S128x64_S64x64_64_0 := found_lower m c
theorem at_bias1 (c : Dev nD) : V m c (Pipeline.arrRef spec0 4)
    = shapeCast S1x64 (m ((c : Thread nD τ).loc main_arg4)) shapeCasts_S64_S1x64 := found_bias1 m c
theorem at_res (c : Dev nD) : V m c (Pipeline.arrRef spec0 5) = m ((c : Thread nD τ).loc main_arg5) := V_main_arg5 m c
theorem at_bias2 (c : Dev nD) : V m c (Pipeline.arrRef spec0 6)
    = shapeCast S1x64 (m ((c : Thread nD τ).loc main_arg6)) shapeCasts_S64_S1x64 := found_bias2 m c

/-! ## The re-laid arrays at an index -/

/-- Row k of the upper cut is row k of the weight. -/
theorem upper_apply {α : Type} (w : S128x64.Idx → α) (k q : Fin 64) :
    extractStridedSlice S64x64 ![0, 0] w slices_S128x64_S64x64_0_0 (ix2 k q) = w (ix2 (Cert.Sage.topRow k) q) :=
  extractStridedSlice_apply _ _ _ _ _ (fun ax => by
    match ax with
    | ⟨0, _⟩ => exact (Nat.zero_add _).symm
    | ⟨1, _⟩ => exact (Nat.zero_add _).symm)

/-- Row k of the lower cut is row 64 + k of the weight. -/
theorem lower_apply {α : Type} (w : S128x64.Idx → α) (k q : Fin 64) :
    extractStridedSlice S64x64 ![64, 0] w slices_S128x64_S64x64_64_0 (ix2 k q) = w (ix2 (Cert.Sage.botRow k) q) :=
  extractStridedSlice_apply _ _ _ _ _ (fun ax => by
    match ax with
    | ⟨0, _⟩ => rfl
    | ⟨1, _⟩ => exact (Nat.zero_add _).symm)

/-- Entry (0, q) of a 64-vector laid out as one row is its entry q. -/
theorem row_apply {α : Type} (b : S64.Idx → α) (q : Fin 64) :
    shapeCast S1x64 b shapeCasts_S64_S1x64 (ix2 (0 : Fin 1) q) = b (ix1 q) :=
  shapeCast_a_1a_apply b _ 0 q

/-- The layer from the cut weight and the one-row biases is the layer from the stacked weight and the biases. -/
theorem layerCut_of_cuts (x mn : S100000x64.Idx → EReal) (w : S128x64.Idx → EReal) (b1 : S64.Idx → EReal)
    (wr : S64x64.Idx → EReal) (b2 : S64.Idx → EReal) :
    Cert.Sage.layerCut x mn (extractStridedSlice S64x64 ![0, 0] w slices_S128x64_S64x64_0_0)
        (extractStridedSlice S64x64 ![64, 0] w slices_S128x64_S64x64_64_0) (shapeCast S1x64 b1 shapeCasts_S64_S1x64) wr
        (shapeCast S1x64 b2 shapeCasts_S64_S1x64)
      = Cert.Sage.layer x mn w b1 wr b2 := by
  funext i
  obtain ⟨p, q, rfl⟩ : ∃ (p : Fin 100000) (q : Fin 64), i = ix2 p q := ⟨i 0, i 1, eq_ix2 i⟩
  rw [Cert.Sage.layerCut_apply, Cert.Sage.layer_apply]
  simp only [upper_apply, lower_apply, row_apply]

end Cert.KernelIdeal.Entry

end
-- ==== Proof.KernelLayer.lean ====
/-
  The kernel's result array is the layer.

  The grid has 20 points; point t stages rows 5000 t .. 5000 t + 4999 of `x` and of the mean, the whole of the two weight
  cuts, the residual weight and the two one-row biases, and writes the stored block back to the same rows of the result.
  So entry (p, q) of what point t writes back is the layer's entry (5000 t + p, q) — first over the seven arrays as the
  region finds them, whatever they hold (`wrote_cut`) —, every row lies in exactly the block of point ⌊row / 5000⌋
  (`covered`), and the result array after the run is the layer of the argument arrays once the five arrays the host
  operations wrote are read back as terms of the arguments (`cut_is_layer`, `final_layer`, `run`).
-/
import proofs.«160254_j11587821765008_1_alg».proof.Proof.Gen.KernelIdeal.Value
import proofs.«160254_j11587821765008_1_alg».proof.Proof.Layer
import proofs.«160254_j11587821765008_1_alg».proof.Proof.BlockLayer
import proofs.«160254_j11587821765008_1_alg».proof.Proof.HostArrays
import Idealize.ShloMosaic.Lib.Pipeline.Value
import Idealize.ShloMosaic.Lib.ValueIdx
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows (`x`, the mean, the result) are at block (t, 0), the
    five whole-array windows at block (0, 0). -/
theorem blocks_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The result over the seven arrays as the region finds them. -/
abbrev resultCut (c : Dev nD) : Buf (Elt Ideal) ((c : Thread nD τ).loc main_v23) :=
  Cert.Sage.layerCut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))

/-- The result: the layer of `x`, the host operations' mean, and the four parameter arrays. -/
abbrev result (c : Dev nD) : Buf (Elt Ideal) ((c : Thread nD τ).loc main_v23) :=
  Cert.Sage.layer (m ((c : Thread nD τ).loc main_arg0))
    (Entry.mean (m ((c : Thread nD τ).loc main_arg0)) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-- The two are one array: the upper and lower cuts are the stacked weight's halves, the one-row biases the biases. -/
theorem cut_is_layer (c : Dev nD) : resultCut m c = result m c := by
  show Cert.Sage.layerCut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6)) = _
  rw [Entry.at_x m c, Entry.at_mean m c, Entry.at_upper m c, Entry.at_lower m c, Entry.at_bias1 m c, Entry.at_res m c,
    Entry.at_bias2 m c]
  exact Entry.layerCut_of_cuts _ _ _ _ _ _

/-! ## A window's block read at an entry, whatever its array holds -/

/-- Row p of the first window's block at point t is row 5000 t + p of its array. -/
theorem read_rows0 (A : (⟨S100000x64, .f32⟩ : BufTy).Contents (Elt Ideal)) (t : Fin cfg0.N) (p : Fin 5000) (k : Fin 64) (r : Fin 100000) (hr : r.val = 5000 * t.val + p.val) :
    ((cfg0.win 0).blk t).view.read (Elt Ideal) A (ix2 p k) = A (ix2 r k) := by
  obtain ⟨⟨e0, e1⟩, -⟩ := blocks_at t
  rw [View.read_apply]
  show A _ = _
  refine congrArg A ?_
  funext a
  apply Fin.ext
  match a with
  | ⟨0, _⟩ => show win0_0.index t 0 * 5000 + 1 * p.val = r.val; rw [e0, hr]; omega
  | ⟨1, _⟩ => show win0_0.index t 1 * 64 + 1 * k.val = k.val; rw [e1]; omega

/-- Row p of the second window's block at point t is row 5000 t + p of its array. -/
theorem read_rows1 (A : (⟨S100000x64, .f32⟩ : BufTy).Contents (Elt Ideal)) (t : Fin cfg0.N) (p : Fin 5000) (k : Fin 64) (r : Fin 100000) (hr : r.val = 5000 * t.val + p.val) :
    ((cfg0.win 1).blk t).view.read (Elt Ideal) A (ix2 p k) = A (ix2 r k) := by
  obtain ⟨-, ⟨e0, e1⟩, -⟩ := blocks_at t
  rw [View.read_apply]
  show A _ = _
  refine congrArg A ?_
  funext a
  apply Fin.ext
  match a with
  | ⟨0, _⟩ => show win0_1.index t 0 * 5000 + 1 * p.val = r.val; rw [e0, hr]; omega
  | ⟨1, _⟩ => show win0_1.index t 1 * 64 + 1 * k.val = k.val; rw [e1]; omega

/-- The third window stages its whole array at every point. -/
theorem read_whole2 (A : (⟨S64x64, .f32⟩ : BufTy).Contents (Elt Ideal)) (t : Fin cfg0.N) (k q : Fin 64) :
    ((cfg0.win 2).blk t).view.read (Elt Ideal) A (ix2 k q) = A (ix2 k q) := by
  obtain ⟨-, -, ⟨e0, e1⟩, -⟩ := blocks_at t
  rw [View.read_apply]
  show A _ = _
  refine congrArg A ?_
  funext a
  apply Fin.ext
  match a with
  | ⟨0, _⟩ => show win0_2.index t 0 * 64 + 1 * k.val = k.val; rw [e0]; omega
  | ⟨1, _⟩ => show win0_2.index t 1 * 64 + 1 * q.val = q.val; rw [e1]; omega

/-- The fourth window stages its whole array at every point. -/
theorem read_whole3 (A : (⟨S64x64, .f32⟩ : BufTy).Contents (Elt Ideal)) (t : Fin cfg0.N) (k q : Fin 64) :
    ((cfg0.win 3).blk t).view.read (Elt Ideal) A (ix2 k q) = A (ix2 k q) := by
  obtain ⟨-, -, -, ⟨e0, e1⟩, -⟩ := blocks_at t
  rw [View.read_apply]
  show A _ = _
  refine congrArg A ?_
  funext a
  apply Fin.ext
  match a with
  | ⟨0, _⟩ => show win0_3.index t 0 * 64 + 1 * k.val = k.val; rw [e0]; omega
  | ⟨1, _⟩ => show win0_3.index t 1 * 64 + 1 * q.val = q.val; rw [e1]; omega

/-- The fifth window stages its whole one-row array at every point. -/
theorem read_one4 (A : (⟨S1x64, .f32⟩ : BufTy).Contents (Elt Ideal)) (t : Fin cfg0.N) (q : Fin 64) :
    ((cfg0.win 4).blk t).view.read (Elt Ideal) A (ix2 (0 : Fin 1) q) = A (ix2 (0 : Fin 1) q) := by
  obtain ⟨-, -, -, -, ⟨e0, e1⟩, -⟩ := blocks_at t
  rw [View.read_apply]
  show A _ = _
  refine congrArg A ?_
  funext a
  apply Fin.ext
  match a with
  | ⟨0, _⟩ => show win0_4.index t 0 * 1 + 1 * 0 = 0; rw [e0]
  | ⟨1, _⟩ => show win0_4.index t 1 * 64 + 1 * q.val = q.val; rw [e1]; omega

/-- The sixth window stages its whole array at every point. -/
theorem read_whole5 (A : (⟨S64x64, .f32⟩ : BufTy).Contents (Elt Ideal)) (t : Fin cfg0.N) (k q : Fin 64) :
    ((cfg0.win 5).blk t).view.read (Elt Ideal) A (ix2 k q) = A (ix2 k q) := by
  obtain ⟨-, -, -, -, -, ⟨e0, e1⟩, -⟩ := blocks_at t
  rw [View.read_apply]
  show A _ = _
  refine congrArg A ?_
  funext a
  apply Fin.ext
  match a with
  | ⟨0, _⟩ => show win0_5.index t 0 * 64 + 1 * k.val = k.val; rw [e0]; omega
  | ⟨1, _⟩ => show win0_5.index t 1 * 64 + 1 * q.val = q.val; rw [e1]; omega

/-- The seventh window stages its whole one-row array at every point. -/
theorem read_one6 (A : (⟨S1x64, .f32⟩ : BufTy).Contents (Elt Ideal)) (t : Fin cfg0.N) (q : Fin 64) :
    ((cfg0.win 6).blk t).view.read (Elt Ideal) A (ix2 (0 : Fin 1) q) = A (ix2 (0 : Fin 1) q) := by
  obtain ⟨-, -, -, -, -, -, ⟨e0, e1⟩, -⟩ := blocks_at t
  rw [View.read_apply]
  show A _ = _
  refine congrArg A ?_
  funext a
  apply Fin.ext
  match a with
  | ⟨0, _⟩ => show win0_6.index t 0 * 1 + 1 * 0 = 0; rw [e0]
  | ⟨1, _⟩ => show win0_6.index t 1 * 64 + 1 * q.val = q.val; rw [e1]; omega

/-! ## One stored block is a block of the layer -/

/-- If the blocks the body loads hold row (i 0) of `A0` and `A1` in their row (y 0), and the whole of the five other
    arrays, the stored value at y is the layer at i (same column). -/
theorem stored_is_cut (A0 A1 : S100000x64.Idx → EReal) (A2 A3 : S64x64.Idx → EReal) (A4 : S1x64.Idx → EReal)
    (A5 : S64x64.Idx → EReal) (A6 : S1x64.Idx → EReal)
    (x0 x1 : Vec Ideal S5000x64 .f32) (x2 x3 x5 : Vec Ideal S64x64 .f32) (x4 x6 : Vec Ideal S1x64 .f32)
    (y : S5000x64.Idx) (i : S100000x64.Idx) (h1 : (i 1).val = (y 1).val)
    (r0 : ∀ (p : Fin 5000) (k : Fin 64) (r : Fin 100000), p.val = (y 0).val → r.val = (i 0).val → x0 (ix2 p k) = A0 (ix2 r k))
    (r1 : ∀ (p : Fin 5000) (k : Fin 64) (r : Fin 100000), p.val = (y 0).val → r.val = (i 0).val → x1 (ix2 p k) = A1 (ix2 r k))
    (r2 : ∀ k q : Fin 64, x2 (ix2 k q) = A2 (ix2 k q)) (r3 : ∀ k q : Fin 64, x3 (ix2 k q) = A3 (ix2 k q))
    (r4 : ∀ q : Fin 64, x4 (ix2 (0 : Fin 1) q) = A4 (ix2 (0 : Fin 1) q)) (r5 : ∀ k q : Fin 64, x5 (ix2 k q) = A5 (ix2 k q))
    (r6 : ∀ q : Fin 64, x6 (ix2 (0 : Fin 1) q) = A6 (ix2 (0 : Fin 1) q)) :
    k0_pay1 (F := Ideal) x0 x1 x2 x3 x5 x4 x6 y = Cert.Sage.layerCut A0 A1 A2 A3 A4 A5 A6 i := by
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  obtain rfl : q' = q := Fin.ext h1
  rw [Block.stored_apply, Cert.Sage.layerCut_apply]
  simp only [r0 p _ r rfl rfl, r1 p _ r rfl rfl, r2, r3, r4, r5, r6]

/-- WHAT POINT t WRITES BACK is rows 5000 t .. 5000 t + 4999 of the layer over the arrays the region finds. -/
theorem wrote_cut (c : Dev nD) (t : Fin cfg0.N) :
    (dats m 0 c).flushed 7 t = ((cfg0.win 7).blk t).view.read (Elt Ideal) (resultCut m c) := by
  rw [Value.flushed7]
  unfold out0_7
  rw [View.canon_unit_zero hz]
  simp only [View.ld_unit_zero (S := S5000x64) hz, View.ld_unit_zero (S := S64x64) hz, View.ld_unit_zero (S := S1x64) hz]
  unfold iblk
  obtain ⟨-, -, -, -, -, -, -, ⟨e0, e1⟩⟩ := blocks_at t
  funext j
  rw [View.read_apply]
  refine stored_is_cut (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) (V m c (Pipeline.arrRef spec0 6))
    (((cfg0.win 0).blk t).view.read (Elt Ideal) (V m c (Pipeline.arrRef spec0 0))) (((cfg0.win 1).blk t).view.read (Elt Ideal) (V m c (Pipeline.arrRef spec0 1)))
    (((cfg0.win 2).blk t).view.read (Elt Ideal) (V m c (Pipeline.arrRef spec0 2))) (((cfg0.win 3).blk t).view.read (Elt Ideal) (V m c (Pipeline.arrRef spec0 3)))
    (((cfg0.win 5).blk t).view.read (Elt Ideal) (V m c (Pipeline.arrRef spec0 5))) (((cfg0.win 4).blk t).view.read (Elt Ideal) (V m c (Pipeline.arrRef spec0 4)))
    (((cfg0.win 6).blk t).view.read (Elt Ideal) (V m c (Pipeline.arrRef spec0 6)))
    ((cfg0.win 7).xinj (grid0.coords t) j) (((cfg0.win 7).blk t).view.emb j) ?_ ?_ ?_ ?_ ?_ ?_ ?_ ?_
  · show win0_7.index t 1 * 64 + 1 * (j 1).val = (j 1).val
    rw [e1]; omega
  · intro p k r hp hr
    refine read_rows0 _ t p k r ?_
    rw [hr, hp]
    show win0_7.index t 0 * 5000 + 1 * (j 0).val = 5000 * t.val + (j 0).val
    rw [e0]; omega
  · intro p k r hp hr
    refine read_rows1 _ t p k r ?_
    rw [hr, hp]
    show win0_7.index t 0 * 5000 + 1 * (j 0).val = 5000 * t.val + (j 0).val
    rw [e0]; omega
  · exact fun k q => read_whole2 _ t k q
  · exact fun k q => read_whole3 _ t k q
  · exact fun q => read_one4 _ t q
  · exact fun k q => read_whole5 _ t k q
  · exact fun q => read_one6 _ t q

/-! ## The blocks fill the result -/
/-- An index of the result is in point t's block iff each coordinate is in the block's range on its axis. -/
theorem in_block (t : Fin cfg0.N) (i : S100000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v23).slice (win0_7.rect t)).set ↔ _
  rw [View.set_slice_whole, Rect.mem_set_unit]
  exact Iff.rfl

/-- Every index of the result lies in the block of the point ⌊row / 5000⌋. -/
theorem covered (i : S100000x64.Idx) :
    ∃ t : Fin cfg0.N, (cfg0.win 7).flush t = true ∧ i ∈ ((cfg0.win 7).blk t).view.set := by
  have hi0 : (i 0).val < 100000 := (i 0).isLt
  have hi1 : (i 1).val < 64 := (i 1).isLt
  have hN : grid0.N = 20 := N_0
  have hlt : (i 0).val / 5000 < grid0.N := by rw [hN]; omega
  obtain ⟨-, -, -, -, -, -, -, ⟨e0, e1⟩⟩ := blocks_at ⟨(i 0).val / 5000, hlt⟩
  refine ⟨⟨(i 0).val / 5000, hlt⟩, flush0_7 _, ?_⟩
  rw [in_block]
  intro a
  match a with
  | ⟨0, _⟩ =>
    show win0_7.index ⟨(i 0).val / 5000, hlt⟩ 0 * 5000 ≤ (i 0).val ∧ (i 0).val < win0_7.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win0_7.index ⟨(i 0).val / 5000, hlt⟩ 1 * 64 ≤ (i 1).val ∧ (i 1).val < win0_7.index ⟨(i 0).val / 5000, hlt⟩ 1 * 64 + 64
    rw [e1]
    omega

/-- THE RESULT ARRAY after the run is the layer. -/
theorem final_layer (c : Dev nD) : (dats m 0 c).arrAt 7 cfg0.N = result m c :=
  ((dats m 0 c).arrAt_eq_of_cover 7 (resultCut m c) (fun t _ => wrote_cut m c t) covered).trans (cut_is_layer m c)

/-- The run, read: the result at the layer of the arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_layer m c), (h c).2⟩)
    (Value.run_blocks m ρ)

end Cert.KernelIdeal.Whole

end
-- ==== Proof.RefLayer.lean ====
/-
  The reference's result is the layer.

  The reference program joins `x` and the neighbourhood mean side by side into a 100000 × 128 array and multiplies it by
  the whole 128-row weight; the rest (bias, rectifier, residual product, second bias) is spelt as in `Cert.Sage.layer`.
  Entry (r, k) of the joined array is `x[r,k]` for k < 64 and `mean[r,k-64]` from there on, so the product's sum over
  k = 0..127 splits into the sum against the weight's upper half and the sum against its lower half. The mean itself is
  whatever the program's own earlier operations compute from `x` and the two edge lists: it is carried as one unopened term.
-/
import proofs.«160254_j11587821765008_1_alg».proof.Proof.Gen.ReferenceIdeal.Read
import proofs.«160254_j11587821765008_1_alg».proof.Proof.Layer
import Idealize.ShloMosaic.Lib.Pipeline.Value
import Idealize.ShloMosaic.Lib.ValueIdx

noncomputable section

open scoped BigOperators

namespace Cert.ReferenceIdeal.Whole

open Cert.ReferenceIdeal Cert.ReferenceIdeal.Gen Cert.ReferenceIdeal.Read Idealize.ShloMosaic Idealize.ShloMosaic.ValueIdx

/-- The joined array at row p, column k of its left half: the first array there. -/
theorem joined_left {α : Type} (a b : S100000x64.Idx → α) (p : Fin 100000) (k : Fin 64) :
    concatenate S100000x128 1 [⟨S100000x64, a⟩, ⟨S100000x64, b⟩] concatenates_S100000x64_S100000x64_S100000x128_d1
      (ix2 p (Cert.Sage.topRow k)) = a (ix2 p k) :=
  concatenate_pair_apply_left 1 a b _ (ix2 p (Cert.Sage.topRow k)) rfl (ix2 p k) (fun ax => by
    match ax with
    | ⟨0, _⟩ => rfl
    | ⟨1, _⟩ => rfl)

/-- The joined array at row p, column 64 + k: the second array at column k. -/
theorem joined_right {α : Type} (a b : S100000x64.Idx → α) (p : Fin 100000) (k : Fin 64) :
    concatenate S100000x128 1 [⟨S100000x64, a⟩, ⟨S100000x64, b⟩] concatenates_S100000x64_S100000x64_S100000x128_d1
      (ix2 p (Cert.Sage.botRow k)) = b (ix2 p k) :=
  concatenate_pair_apply_right 1 a b _ (ix2 p (Cert.Sage.botRow k)) rfl rfl (ix2 p k) (fun ax hne => by
    match ax with
    | ⟨0, _⟩ => rfl
    | ⟨1, _⟩ => exact absurd rfl hne) (by show k.val + 64 = 64 + k.val; omega)

/-- THE REFERENCE'S LAST STAGE IS THE LAYER of `x`, the program's own mean, and the four parameter arrays. -/
theorem result_eq_layer (x0 : (⟨S100000x64, .f32⟩ : BufTy).Contents (Elt Ideal)) (x1 x2 : (⟨S800000, .i32⟩ : BufTy).Contents (Elt Ideal))
    (x3 : (⟨S128x64, .f32⟩ : BufTy).Contents (Elt Ideal)) (x4 : (⟨S64, .f32⟩ : BufTy).Contents (Elt Ideal))
    (x5 : (⟨S64x64, .f32⟩ : BufTy).Contents (Elt Ideal)) (x6 : (⟨S64, .f32⟩ : BufTy).Contents (Elt Ideal)) :
    val_main_v29 (F := Ideal) x0 x1 x2 x3 x4 x5 x6
      = Cert.Sage.layer x0 (val_main_v18 (F := Ideal) x0 x1 x2) x3 x4 x5 x6 := by
  funext i
  obtain ⟨p, q, rfl⟩ : ∃ (p : Fin 100000) (q : Fin 64), i = ix2 p q := ⟨i 0, i 1, eq_ix2 i⟩
  rw [Cert.Sage.layer_apply]
  rw [val_main_v29_apply, val_main_v26_apply, val_main_v24_apply, val_main_v23_apply, val_main_v20_apply,
    val_main_v25_apply, val_main_v22_apply, val_main_v21_apply, val_main_v28_apply, val_main_v27_apply,
    val_main_call0_v0_apply, val_main_call0_cst_apply]
  have eL : ∀ k : Fin 128, lidx_main_v20 (ix2 p q) k = ix2 p k := fun k => funext fun a => Fin.ext (by
    match a with
    | ⟨0, _⟩ => rfl
    | ⟨1, _⟩ => rfl)
  have eR : ∀ k : Fin 128, ridx_main_v20 (ix2 p q) k = ix2 k q := fun k => funext fun a => Fin.ext (by
    match a with
    | ⟨0, _⟩ => rfl
    | ⟨1, _⟩ => rfl)
  have eL' : ∀ k : Fin 64, lidx_main_v25 (ix2 p q) k = ix2 p k := fun k => funext fun a => Fin.ext (by
    match a with
    | ⟨0, _⟩ => rfl
    | ⟨1, _⟩ => rfl)
  have eR' : ∀ k : Fin 64, ridx_main_v25 (ix2 p q) k = ix2 k q := fun k => funext fun a => Fin.ext (by
    match a with
    | ⟨0, _⟩ => rfl
    | ⟨1, _⟩ => rfl)
  have e4 : idx_main_v21 (idx_main_v22 (ix2 p q)) = ix1 q := funext fun a => Fin.ext (by
    match a with
    | ⟨0, _⟩ => rfl)
  have e6 : idx_main_v27 (idx_main_v28 (ix2 p q)) = ix1 q := funext fun a => Fin.ext (by
    match a with
    | ⟨0, _⟩ => rfl)
  simp only [eL, eR, eL', eR', e4, e6]
  rw [Cert.Sage.sum_rows_split]
  unfold val_main_v19 Cert.Sage.entry
  simp only [joined_left, joined_right]
  rfl

end Cert.ReferenceIdeal.Whole

end
-- ==== Proof.lean ====
/-
  A graph layer that averages each node's neighbours and applies two linear maps: the kernel against its reference,
  over the extended reals.

  Both programs first compute, by the same host operations, the mean over each node's incoming edges of the source nodes'
  feature rows (zero for a node with no incoming edge). The reference then multiplies the rows `[x | mean]` (128 columns) by
  the stacked weight, adds a bias, rectifies, and adds `x · w_res` and a second bias. The kernel cuts the stacked weight
  into its upper and lower 64 rows on the host and, 5000 rows at a time, computes `x · w_upper + mean · w_lower` by two
  products on the matrix unit (operands narrowed to bf16, which is the identity on extended reals), then the same bias,
  rectifier, residual product and second bias.

  The two agree because a sum over the 128 columns of `[x | mean]` is the sum over the 64 columns of `x` plus the sum over
  the 64 columns of `mean` (`Cert.Sage.sum_rows_split`, true in any commutative additive monoid: nothing is cancelled or
  distributed, so the inputs' finiteness is never used). Both results are stated as ONE function of the argument arrays,
  `Cert.Sage.layer` (Proof/Layer.lean): the reference's last stage is it (Proof/RefLayer.lean), the stored block of a grid
  point is a block of it (Proof/BlockLayer.lean, Proof/HostArrays.lean) and the twenty blocks fill the result
  (Proof/KernelLayer.lean). Nothing is rewritten on the way to the idealized kernel: it is the kernel's own text read over
  the extended reals.
-/
import proofs.«160254_j11587821765008_1_alg».proof.Defs
import proofs.«160254_j11587821765008_1_alg».proof.Proof.Gen.Kernel
import proofs.«160254_j11587821765008_1_alg».proof.Proof.Gen.Kernel.Frame
import proofs.«160254_j11587821765008_1_alg».proof.Proof.Gen.KernelIdeal
import proofs.«160254_j11587821765008_1_alg».proof.Proof.Gen.KernelIdeal.Frame
import proofs.«160254_j11587821765008_1_alg».proof.Proof.Gen.KernelIdeal.Value
import proofs.«160254_j11587821765008_1_alg».proof.Proof.Gen.ReferenceIdeal
import proofs.«160254_j11587821765008_1_alg».proof.Proof.Gen.ReferenceIdeal.Run
import proofs.«160254_j11587821765008_1_alg».proof.Proof.Gen.ReferenceIdeal.Read
import proofs.«160254_j11587821765008_1_alg».proof.Proof.Gen.Pre_finite_inputs
import proofs.«160254_j11587821765008_1_alg».proof.Proof.KernelLayer
import proofs.«160254_j11587821765008_1_alg».proof.Proof.RefLayer
import Idealize.ShloMosaic.Adequacy
import Idealize.ShloMosaic.Init

noncomputable section

namespace Cert.Proof

open Idealize.ShloMosaic Idealize.ShloMosaic.TcCoe Idealize.SL.Sem

/-- The two programs spell the neighbourhood mean by the same operations on the same arguments. -/
theorem same_mean (x0 : (⟨Cert.KernelIdeal.S100000x64, .f32⟩ : BufTy).Contents (Elt Ideal))
    (x1 x2 : (⟨Cert.KernelIdeal.S800000, .i32⟩ : BufTy).Contents (Elt Ideal)) :
    Cert.ReferenceIdeal.Read.val_main_v18 (F := Ideal) x0 x1 x2 = Cert.KernelIdeal.Entry.mean (F := Ideal) x0 x1 x2 := rfl

theorem frame_kernel : Cert.frame_Kernel := fun m ρ _ => Cert.Kernel.Gen.frame m ρ
theorem frame_ideal : Cert.frame_KernelIdeal := fun m ρ _ => Cert.KernelIdeal.Gen.frame m ρ
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel. -/
theorem preserves : Cert.preserves_Kernel_KernelIdeal := trivial

/-- From memories agreeing on the seven arguments, both runs end with the result at the layer of those arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v29_eq, Cert.ReferenceIdeal.Whole.result_eq_layer, a0, a1, a2, a3, a4, a5, a6,
    same_mean]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
